-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8192x2048 .f32) (main_arg1 : FVec F S8192 .f32) (main_arg2 : FVec F S2048x2048 .f32) (main_arg3 : FVec F S2048x2048 .f32) (main_arg4 : FVec F S2048 .f32) (main_arg5 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S8192x2048 : Shape := ⟨2, ![8192, 2048]⟩
abbrev S8192 : Shape := ⟨1, ![8192]⟩
abbrev S2048x2048 : Shape := ⟨2, ![2048, 2048]⟩
abbrev S2048 : Shape := ⟨1, ![2048]⟩
abbrev S8192x1 : Shape := ⟨2, ![8192, 1]⟩
abbrev S1x2048 : Shape := ⟨2, ![1, 2048]⟩
abbrev S512x2048 : Shape := ⟨2, ![512, 2048]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8192x2048, .bf16⟩
  | .hbm, ⟨7, _⟩ => ⟨S2048x2048, .bf16⟩
  | .hbm, ⟨8, _⟩ => ⟨S2048x2048, .bf16⟩
  | .hbm, ⟨9, _⟩ => ⟨S8192x1, .f32⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S8192_S8192x1 : S8192.ShapeCasts S8192x1
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .f32 = 32 ∨ (Rect.block (s := S8192x2048) S512x2048.size (cc0_transform_6 i) (hinb0_6 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S2048x2048 : Shape := ⟨2, ![2048, 2048]⟩
abbrev S2048 : Shape := ⟨1, ![2048]⟩
abbrev S8192x1 : Shape := ⟨2, ![8192, 1]⟩
abbrev S1x2048 : Shape := ⟨2, ![1, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8192x1, .f32⟩
  | .hbm, ⟨7, _⟩ => ⟨S2048x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  transposes_S2048x2048_S2048x2048_1_0 : S2048x2048.Transposes [1, 0] S2048x2048
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S8192x1 : S_.BroadcastsInDim S8192x1 (![] : Fin 0 → Fin S8192x1.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Blend.lean ====
/-
  The function both programs compute, as ONE function of the argument arrays.

  A batch of 8192 rows `x p` (each of 2048 entries), a mixing coefficient `a p` per row, two 2048 × 2048 weight
  matrices `w1`, `w2` and two bias vectors `b1`, `b2`. Entry `(p, q)` of the result is

      (a p · ⟨x p, w1 q⟩ + (1 − a p) · ⟨x p, w2 q⟩) + (a p · b1 q + (1 − a p) · b2 q),

  where `⟨x p, w q⟩ = ∑ k, x (p, k) · w (q, k)` contracts a row of `x` with a ROW of the weight matrix (the product with
  the transposed matrix), on the extended reals. The grouping of the four products is the one both programs use, so no
  law of arithmetic is needed to compare them, and nothing here depends on the entries being finite.
-/
import Idealize.ShloMosaic.PureOps.Ideal
import Idealize.ShloMosaic.Lib.ValueIdx

noncomputable section

open scoped BigOperators

namespace Cert.Blend

open Idealize.ShloMosaic Idealize.ShloMosaic.ValueIdx

/-- The number `1.0` as both programs write it (the same binary32 word on both sides: it is never evaluated). -/
abbrev one : EReal := Ideal.ofBits .f32 0x3F800000#32

/-- One entry from its ingredients: the mixing coefficient `a`, the two inner products `y1`, `y2` and the two bias
    entries `c1`, `c2`. -/
def mix (a y1 y2 c1 c2 : EReal) : EReal := (a * y1 + (one - a) * y2) + (a * c1 + (one - a) * c2)

/-- The inner product of row `p` of `x` with row `q` of a weight matrix `w`. -/
def inner (x : (⟨2, ![8192, 2048]⟩ : Shape).Idx → EReal) (w : (⟨2, ![2048, 2048]⟩ : Shape).Idx → EReal)
    (p : Fin 8192) (q : Fin 2048) : EReal :=
  ∑ k : Fin 2048, x (ix2 p k) * w (ix2 q k)

/-- Entry `(p, q)` of the result. -/
def blendAt (x : (⟨2, ![8192, 2048]⟩ : Shape).Idx → EReal) (a : (⟨1, ![8192]⟩ : Shape).Idx → EReal)
    (w1 w2 : (⟨2, ![2048, 2048]⟩ : Shape).Idx → EReal) (b1 b2 : (⟨1, ![2048]⟩ : Shape).Idx → EReal)
    (p : Fin 8192) (q : Fin 2048) : EReal :=
  mix (a (ix1 p)) (inner x w1 p q) (inner x w2 p q) (b1 (ix1 q)) (b2 (ix1 q))

/-- The whole result array. -/
def blend (x : (⟨2, ![8192, 2048]⟩ : Shape).Idx → EReal) (a : (⟨1, ![8192]⟩ : Shape).Idx → EReal)
    (w1 w2 : (⟨2, ![2048, 2048]⟩ : Shape).Idx → EReal) (b1 b2 : (⟨1, ![2048]⟩ : Shape).Idx → EReal) :
    (⟨2, ![8192, 2048]⟩ : Shape).Idx → EReal :=
  fun i => blendAt x a w1 w2 b1 b2 (i 0) (i 1)

/-- The array at an index given by its coordinates. -/
theorem blend_ix2 (x : (⟨2, ![8192, 2048]⟩ : Shape).Idx → EReal) (a : (⟨1, ![8192]⟩ : Shape).Idx → EReal)
    (w1 w2 : (⟨2, ![2048, 2048]⟩ : Shape).Idx → EReal) (b1 b2 : (⟨1, ![2048]⟩ : Shape).Idx → EReal)
    (p : Fin 8192) (q : Fin 2048) : blend x a w1 w2 b1 b2 (ix2 p q) = blendAt x a w1 w2 b1 b2 p q := rfl

end Cert.Blend

end
-- ==== Proof.LibMatmulRowsByRows.lean ====
/-
  A matrix product whose right operand is contracted on its LAST axis — `x · wᵀ` for `x : [M, K]` and `w : [N, K]`,
  the dimension numbers `DotDims.transposedRhs M K N` — read at an entry, on the extended reals: into a zero
  accumulator, entry `(p, q)` of the product is the inner product of row `p` of `x` with row `q` of `w`,

      ∑ k : Fin K, x (p, k) · w (q, k).

  The library states a product's entry as a sum over the dimension numbers' contraction index of the operands at the
  indices the dimension numbers compute; here those two indices are named by their coordinates and the contraction index
  is replaced by its one coordinate. General in the three extents and the operands' formats.
-/
import Idealize.ShloMosaic.PureOps.Ideal.Laws
import Idealize.ShloMosaic.Lib.ValueIdx

noncomputable section

open scoped BigOperators

namespace Idealize.ShloMosaic.ValueIdx

open Idealize.ShloMosaic

variable {M K N : Nat}

/-- The left operand's row is the entry's row … -/
theorem transposedRhs_lhsIdx_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … the right operand's row is the entry's column … -/
theorem transposedRhs_rhsIdx_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and both operands' columns are the contraction's one coordinate: entry `(p, q)` of `x · wᵀ`, accumulated from
    zero, is the inner product of row `p` of `x` and row `q` of `w`. -/
theorem matmul_transposedRhs_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant ⟨2, ![M, N]⟩ .f32 0x00000000#32) (ix2 p q)
      = ∑ k : Fin K, x (ix2 p k) * w (ix2 q k) := by
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact transposedRhs_lhsIdx_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact transposedRhs_rhsIdx_row _ _
      | ⟨1, _⟩ => exact ((DotDims.transposedRhs M K N).rhsIdx_val_of_single rfl _ _).trans hk)
  rw [el, er]

end Idealize.ShloMosaic.ValueIdx

end
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.Payload.lean ====
/-
  What the kernel body stores, entry by entry.

  At one grid point the body holds a block of 512 rows of `x`, both weight matrices whole, the 512 coefficients of those
  rows as a column, and the two bias vectors as rows. It forms the two products `x · w1ᵀ`, `x · w2ᵀ` from a zero
  accumulator, broadcasts the coefficient column (and `1 −` it) over the columns and the bias rows over the rows, and
  stores `(a · y1 + (1 − a) · y2) + (a · b1 + (1 − a) · b2)`. Read at entry `(p, q)` of the block this is
  `Cert.Blend.mix` of the block's own entries: the coefficient `(p, 0)`, the inner products of row `p` of the `x` block
  with row `q` of each weight matrix, and the bias entries `(0, q)`.
-/
import proofs.«169532_j53283364274742_1_alg».proof.Proof.Gen.KernelIdeal.Skeleton
import proofs.«169532_j53283364274742_1_alg».proof.Proof.Blend
import proofs.«169532_j53283364274742_1_alg».proof.Proof.LibMatmulRowsByRows
import proofs.«169532_j53283364274742_1_alg».proof.Proof.LibColumnLayout
import Idealize.ShloMosaic.Lib.ValueLayout

noncomputable section

open scoped BigOperators

namespace Cert.KernelIdeal.Payload

open Idealize.ShloMosaic Idealize.ShloMosaic.ValueIdx Cert.KernelIdeal Cert.KernelIdeal.Gen Cert.Blend

/-- Entry `(p, q)` of the block of 512 rows times a weight matrix transposed, accumulated from zero: the inner product
    of the block's row `p` and the matrix's row `q`. -/
theorem rows_dot (x : FVec Ideal S512x2048 .bf16) (w : FVec Ideal S2048x2048 .bf16) (p : Fin 512) (q : Fin 2048) :
    matmul dot_S512x2048_S2048x2048_S512x2048_1_1_0_0_n_n none x w (constant S512x2048 .f32 0x00000000#32) (ix2 p q)
      = ∑ k : Fin 2048, x (ix2 p k) * w (ix2 q k) :=
  matmul_transposedRhs_zero_apply (M := 512) (K := 2048) (N := 2048) none x w p q

/-- The stored value at entry `(p, q)` of the block. -/
theorem pay_apply (x0 : FVec Ideal S512x2048 .bf16) (x1 x2 : FVec Ideal S2048x2048 .bf16) (x3 : FVec Ideal S512x1 .f32)
    (x4 x5 : FVec Ideal S1x2048 .f32) (p : Fin 512) (q : Fin 2048) :
    k0_pay1 (F := Ideal) x0 x1 x2 x3 x4 x5 (ix2 p q)
      = mix (x3 (ix2 p (0 : Fin 1))) (∑ k : Fin 2048, x0 (ix2 p k) * x1 (ix2 q k)) (∑ k : Fin 2048, x0 (ix2 p k) * x2 (ix2 q k))
          (x4 (ix2 (0 : Fin 1) q)) (x5 (ix2 (0 : Fin 1) q)) := by
  unfold k0_pay1
  simp only [shapeCast_self]
  simp only [addf_apply, mulf_apply, subf_apply, broadcast_apply, broadcastTo_a1_ab_apply, broadcastTo_1b_ab_apply, rows_dot]
  rfl

end Cert.KernelIdeal.Payload

end
-- ==== Proof.LibVectorAsColumn.lean ====
/-
  A vector viewed as a one-column matrix, read at an index given by coordinates: an `[a]` array cast to `[a, 1]` (what
  `v.reshape(a, 1)` or `v[:, None]` is, as a shape cast) reads, at `(i, u)`, the vector's entry `i`. The layout library
  has the row form `[a] → [1, a]`; this is the column form, with the row-major arithmetic discharged the same way.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.Staged.lean ====
/-
  What the kernel's region finds in the arrays it stages.

  Before the region the program converts `x` and the two weight matrices to a narrower float format — on the extended
  reals a change of format is the identity, so the region finds the argument arrays themselves — and views the
  coefficient vector as a column `[8192, 1]` and each bias vector as a row `[1, 2048]`. Read at an index given by its
  coordinates, entry `(p, 0)` of the column is the vector's entry `p` and entry `(0, q)` of a row is the vector's entry `q`.
-/
import proofs.«169532_j53283364274742_1_alg».proof.Proof.Gen.KernelIdeal.Frame
import proofs.«169532_j53283364274742_1_alg».proof.Proof.LibVectorAsColumn
import Idealize.ShloMosaic.Lib.StableHlo.Run
import Idealize.ShloMosaic.Lib.ValueLayout

noncomputable section

namespace Cert.KernelIdeal.Staged

open Idealize.ShloMosaic Idealize.ShloMosaic.TcCoe Idealize.SL.Sem Idealize.ShloMosaic.ValueIdx
open Cert.KernelIdeal Cert.KernelIdeal.Gen Idealize.ShloMosaic.StableHlo

variable (m : (ℓ : Loc nD τ sig) → Buf (Elt Ideal) ℓ)

/-- The staged `x` is the argument `x`. -/
theorem x_eq (c : Dev nD) :
    (V m c main_v0 : S8192x2048.Idx → EReal) = (m ((c : Thread nD τ).loc main_arg0) : S8192x2048.Idx → EReal) := by
  dsimp only [Gen.V, Gen.hostOps0]; after_results; rfl

/-- The first staged weight matrix is the argument. -/
theorem w1_eq (c : Dev nD) :
    (V m c main_v1 : S2048x2048.Idx → EReal) = (m ((c : Thread nD τ).loc main_arg2) : S2048x2048.Idx → EReal) := by
  dsimp only [Gen.V, Gen.hostOps0]; after_results; rfl

/-- The second staged weight matrix is the argument. -/
theorem w2_eq (c : Dev nD) :
    (V m c main_v2 : S2048x2048.Idx → EReal) = (m ((c : Thread nD τ).loc main_arg3) : S2048x2048.Idx → EReal) := by
  dsimp only [Gen.V, Gen.hostOps0]; after_results; rfl

/-- The staged coefficient column is the coefficient vector viewed as a column … -/
theorem a_eq (c : Dev nD) :
    (V m c main_v3 : S8192x1.Idx → EReal)
      = shapeCast S8192x1 (m ((c : Thread nD τ).loc main_arg1) : S8192.Idx → EReal) Facts₀.shapeCasts_S8192_S8192x1 := by
  dsimp only [Gen.V, Gen.hostOps0]; after_results; rfl

/-- … so its entry `(p, 0)` is the vector's entry `p`. -/
theorem a_apply (c : Dev nD) (p : Fin 8192) (u : Fin 1) :
    (V m c main_v3 : S8192x1.Idx → EReal) (ix2 p u) = (m ((c : Thread nD τ).loc main_arg1) : S8192.Idx → EReal) (ix1 p) := by
  rw [a_eq]; exact shapeCast_a_a1_apply _ _ p u

/-- The first staged bias row is the bias vector viewed as a row … -/
theorem b1_eq (c : Dev nD) :
    (V m c main_v4 : S1x2048.Idx → EReal)
      = shapeCast S1x2048 (m ((c : Thread nD τ).loc main_arg4) : S2048.Idx → EReal) Facts₀.shapeCasts_S2048_S1x2048 := by
  dsimp only [Gen.V, Gen.hostOps0]; after_results; rfl

/-- … so its entry `(0, q)` is the vector's entry `q`. -/
theorem b1_apply (c : Dev nD) (u : Fin 1) (q : Fin 2048) :
    (V m c main_v4 : S1x2048.Idx → EReal) (ix2 u q) = (m ((c : Thread nD τ).loc main_arg4) : S2048.Idx → EReal) (ix1 q) := by
  rw [b1_eq]; exact shapeCast_a_1a_apply _ _ u q

/-- The second staged bias row likewise … -/
theorem b2_eq (c : Dev nD) :
    (V m c main_v5 : S1x2048.Idx → EReal)
      = shapeCast S1x2048 (m ((c : Thread nD τ).loc main_arg5) : S2048.Idx → EReal) Facts₀.shapeCasts_S2048_S1x2048 := by
  dsimp only [Gen.V, Gen.hostOps0]; after_results; rfl

/-- … with entry `(0, q)` the vector's entry `q`. -/
theorem b2_apply (c : Dev nD) (u : Fin 1) (q : Fin 2048) :
    (V m c main_v5 : S1x2048.Idx → EReal) (ix2 u q) = (m ((c : Thread nD τ).loc main_arg5) : S2048.Idx → EReal) (ix1 q) := by
  rw [b2_eq]; exact shapeCast_a_1a_apply _ _ u q

end Cert.KernelIdeal.Staged

end
-- ==== Proof.Blocks.lean ====
/-
  From the blocks to the whole result array.

  The grid has 16 points; point `t` stages rows `512 t … 512 t + 511` of `x` and of the coefficient column, the two
  weight matrices and the two bias rows whole, and writes back rows `512 t … 512 t + 511` of the result. So an entry
  `(p, q)` of the block written at `t` is entry `(512 t + p, q)` of the array, and the block entries the body reads there
  are the array entries `Cert.Blend.blendAt` names at that row and column: what point `t` writes back is block `t` of
  `Cert.Blend.blend` of the six argument arrays. The 16 row blocks cover the array (row `r` lies in block `r / 512`), so
  after the run the result array is `blend` of the arguments.
-/
import proofs.«169532_j53283364274742_1_alg».proof.Proof.Gen.KernelIdeal.Value
import proofs.«169532_j53283364274742_1_alg».proof.Proof.Payload
import proofs.«169532_j53283364274742_1_alg».proof.Proof.Staged

noncomputable section

open scoped BigOperators

namespace Cert.KernelIdeal.Blocks

open Idealize.ShloMosaic Idealize.ShloMosaic.TcCoe Idealize.SL.Sem Idealize.ShloMosaic.ValueIdx
open Cert.KernelIdeal Cert.KernelIdeal.Gen Cert.Blend
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices of the seven windows at point `t`, decided over the 16 points: the row blocks of `x`, of the
    coefficient column and of the result are block `t`; the weights and the biases are always block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array the result is: `blend` of the six argument arrays as launched. -/
abbrev result (c : Dev nD) : S8192x2048.Idx → EReal :=
  blend (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Its entry at an index given by coordinates. -/
theorem result_ix2 (c : Dev nD) (r : Fin 8192) (q : Fin 2048) :
    result m c (ix2 r q) = blendAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) r q := rfl

/-! ## The blocks the body reads, as entries of the arguments -/

/-- Entry `(p, k)` of the `x` block at point `t` is entry `(512 t + p, k)` of `x`. -/
theorem x_block (c : Dev nD) (t : Fin cfg0.N) (p : Fin 512) (k : Fin 2048) (r : Fin 8192) (hr : r.val = 512 * t.val + p.val) :
    (iblk m c 0 t : Vec Ideal S512x2048 .bf16) (ix2 p k)
      = (m ((c : Thread nD τ).loc main_arg0) : S8192x2048.Idx → EReal) (ix2 r k) := by
  obtain ⟨e0, e1, -⟩ := block_indices t
  unfold iblk
  rw [View.read_apply]
  show V m c main_v0 _ = _
  rw [Staged.x_eq]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The first weight block is the whole first weight matrix. -/
theorem w1_block (c : Dev nD) (t : Fin cfg0.N) (q k : Fin 2048) :
    (iblk m c 1 t : Vec Ideal S2048x2048 .bf16) (ix2 q k)
      = (m ((c : Thread nD τ).loc main_arg2) : S2048x2048.Idx → EReal) (ix2 q k) := by
  obtain ⟨-, -, e0, e1, -⟩ := block_indices t
  unfold iblk
  rw [View.read_apply]
  show V m c main_v1 _ = _
  rw [Staged.w1_eq]
  refine congrArg _ (funext fun a => Fin.ext ?_)
  match a with
  | ⟨0, _⟩ => show win0_1.index t (0 : Fin 2) * 2048 + 1 * q.val = q.val; rw [e0]; omega
  | ⟨1, _⟩ => show win0_1.index t (1 : Fin 2) * 2048 + 1 * k.val = k.val; rw [e1]; omega

/-- The second weight block is the whole second weight matrix. -/
theorem w2_block (c : Dev nD) (t : Fin cfg0.N) (q k : Fin 2048) :
    (iblk m c 2 t : Vec Ideal S2048x2048 .bf16) (ix2 q k)
      = (m ((c : Thread nD τ).loc main_arg3) : S2048x2048.Idx → EReal) (ix2 q k) := by
  obtain ⟨-, -, -, -, e0, e1, -⟩ := block_indices t
  unfold iblk
  rw [View.read_apply]
  show V m c main_v2 _ = _
  rw [Staged.w2_eq]
  refine congrArg _ (funext fun a => Fin.ext ?_)
  match a with
  | ⟨0, _⟩ => show win0_2.index t (0 : Fin 2) * 2048 + 1 * q.val = q.val; rw [e0]; omega
  | ⟨1, _⟩ => show win0_2.index t (1 : Fin 2) * 2048 + 1 * k.val = k.val; rw [e1]; omega

/-- Entry `(p, 0)` of the coefficient block at point `t` is the coefficient of row `512 t + p`. -/
theorem a_block (c : Dev nD) (t : Fin cfg0.N) (p : Fin 512) (r : Fin 8192) (hr : r.val = 512 * t.val + p.val) :
    (iblk m c 3 t : Vec Ideal S512x1 .f32) (ix2 p (0 : Fin 1))
      = (m ((c : Thread nD τ).loc main_arg1) : S8192.Idx → EReal) (ix1 r) := by
  obtain ⟨-, -, -, -, -, -, e0, e1, -⟩ := block_indices t
  unfold iblk
  rw [View.read_apply, ← Staged.a_apply m c r (0 : Fin 1)]
  show V m c main_v3 _ = _
  refine congrArg _ (funext fun a => Fin.ext ?_)
  match a with
  | ⟨0, _⟩ => show win0_3.index t (0 : Fin 2) * 512 + 1 * p.val = r.val; rw [e0, hr]; omega
  | ⟨1, _⟩ => show win0_3.index t (1 : Fin 2) * 1 + 1 * 0 = 0; rw [e1]

/-- Entry `(0, q)` of the first bias block is the first bias vector's entry `q`. -/
theorem b1_block (c : Dev nD) (t : Fin cfg0.N) (q : Fin 2048) :
    (iblk m c 4 t : Vec Ideal S1x2048 .f32) (ix2 (0 : Fin 1) q)
      = (m ((c : Thread nD τ).loc main_arg4) : S2048.Idx → EReal) (ix1 q) := by
  obtain ⟨-, -, -, -, -, -, -, -, e0, e1, -⟩ := block_indices t
  unfold iblk
  rw [View.read_apply, ← Staged.b1_apply m c (0 : Fin 1) q]
  show V m c main_v4 _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 2048 + 1 * q.val = q.val; rw [e1]; omega

/-- Entry `(0, q)` of the second bias block is the second bias vector's entry `q`. -/
theorem b2_block (c : Dev nD) (t : Fin cfg0.N) (q : Fin 2048) :
    (iblk m c 5 t : Vec Ideal S1x2048 .f32) (ix2 (0 : Fin 1) q)
      = (m ((c : Thread nD τ).loc main_arg5) : S2048.Idx → EReal) (ix1 q) := by
  obtain ⟨-, -, -, -, -, -, -, -, -, -, e0, e1, -⟩ := block_indices t
  unfold iblk
  rw [View.read_apply, ← Staged.b2_apply m c (0 : Fin 1) q]
  show V m c main_v5 _ = _
  refine congrArg _ (funext fun a => Fin.ext ?_)
  match a with
  | ⟨0, _⟩ => show win0_5.index t (0 : Fin 2) * 1 + 1 * 0 = 0; rw [e0]
  | ⟨1, _⟩ => show win0_5.index t (1 : Fin 2) * 2048 + 1 * q.val = q.val; rw [e1]; omega

/-! ## What a point writes back, the cover, and the run -/

/-- Entry `(p, q)` of the result block at point `t` sits at `(512 t + p, q)` in the array. -/
theorem out_place (t : Fin cfg0.N) (p : Fin 512) (q : Fin 2048) (r : Fin 8192) (hr : r.val = 512 * t.val + p.val) :
    ((cfg0.win 6).blk t).view.emb (ix2 p q) = (ix2 r q : S8192x2048.Idx) := by
  obtain ⟨-, -, -, -, -, -, -, -, -, -, -, -, e0, e1⟩ := block_indices t
  refine funext fun a => Fin.ext ?_
  match a with
  | ⟨0, _⟩ => show win0_6.index t (0 : Fin 2) * 512 + 1 * p.val = r.val; rw [e0, hr]; omega
  | ⟨1, _⟩ => show win0_6.index t (1 : Fin 2) * 2048 + 1 * q.val = q.val; rw [e1]; omega

/-- WHAT POINT `t` WRITES BACK is block `t` of `blend` of the argument arrays. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S512x2048) zero_offsets, View.ld_unit_zero (S := S2048x2048) zero_offsets,
    View.ld_unit_zero (S := S512x1) zero_offsets, View.ld_unit_zero (S := S1x2048) zero_offsets]
  funext j
  obtain ⟨p, q, rfl⟩ : ∃ (p : Fin 512) (q : Fin 2048), j = ix2 p q := ⟨j 0, j 1, eq_ix2 j⟩
  have ht : t.val < 16 := N_0 ▸ t.isLt
  obtain ⟨r, hr⟩ : ∃ r : Fin 8192, r.val = 512 * t.val + p.val := ⟨⟨512 * t.val + p.val, by omega⟩, rfl⟩
  show k0_pay1 (iblk m c 0 t) (iblk m c 1 t) (iblk m c 2 t) (iblk m c 3 t) (iblk m c 4 t) (iblk m c 5 t) (ix2 p q)
    = result m c (((cfg0.win 6).blk t).view.emb (ix2 p q))
  rw [out_place t p q r hr, result_ix2]
  refine (Payload.pay_apply (iblk m c 0 t) (iblk m c 1 t) (iblk m c 2 t) (iblk m c 3 t) (iblk m c 4 t) (iblk m c 5 t) p q).trans ?_
  unfold blendAt Blend.inner
  simp only [x_block m c t p _ r hr, w1_block m c t q _, w2_block m c t q _, a_block m c t p r hr, b1_block m c t q,
    b2_block m c t q]

/-- Every index of the result array lies in the block of the point its row belongs to. -/
theorem cover (i : S8192x2048.Idx) :
    ∃ t : Fin cfg0.N, (cfg0.win 6).flush t = true ∧ i ∈ ((cfg0.win 6).blk t).view.set := by
  have h0 : (i 0).val < 8192 := (i 0).isLt
  have h1 : (i 1).val < 2048 := (i 1).isLt
  have hN : cfg0.N = 16 := N_0
  let t : Fin cfg0.N := ⟨(i 0).val / 512, by rw [hN]; omega⟩
  obtain ⟨-, -, -, -, -, -, -, -, -, -, -, -, e0, e1⟩ := block_indices t
  refine ⟨t, flush0_6 t, ?_⟩
  show i ∈ ((View.whole main_v6).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0]; show (i 0).val / 512 * 512 ≤ (i 0).val ∧ (i 0).val < (i 0).val / 512 * 512 + 512; omega
  | ⟨1, _⟩ =>
    show win0_6.index t (1 : Fin 2) * 2048 ≤ (i 1).val ∧ (i 1).val < win0_6.index t (1 : Fin 2) * 2048 + 2048
    rw [e1]; omega

/-- THE RESULT ARRAY after the run is `blend` of the argument arrays. -/
theorem final (c : Dev nD) : (dats m 0 c).arrAt 6 cfg0.N = result m c :=
  (dats m 0 c).arrAt_eq_of_cover 6 (result m c) (fun t _ => flushed_eq m c t) cover

/-- The kernel's run, read: the result array at `blend` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Blocks

end
-- ==== Proof.RefBlend.lean ====
/-
  The reference computes `Cert.Blend.blend`.

  Its program broadcasts the coefficient vector to a column and then over the columns, transposes each weight matrix and
  contracts the rows of `x` with the transposed matrix's columns, and combines the four products in the grouping of
  `Cert.Blend.mix`. Read at an index `(p, q)`, every layout operation names an entry by its coordinates, the two
  contractions are the sums `∑ k, x (p, k) · w (q, k)` (the transpose exchanges the weight's two coordinates back), and
  what is left is `mix` of those entries.
-/
import proofs.«169532_j53283364274742_1_alg».proof.Proof.Gen.ReferenceIdeal.Read
import proofs.«169532_j53283364274742_1_alg».proof.Proof.Blend

noncomputable section

open scoped BigOperators

namespace Cert.ReferenceIdeal.RefBlend

open Idealize.ShloMosaic Idealize.ShloMosaic.ValueIdx Cert.ReferenceIdeal Cert.ReferenceIdeal.Read Cert.Blend

/-- The coefficient of row `p`, read through the column and each of its four broadcasts over the columns. -/
theorem coeff_idx (p : Fin 8192) (q : Fin 2048) :
    idx_main_v0 (idx_main_v16 (ix2 p q)) = ix1 p ∧ idx_main_v0 (idx_main_v20 (ix2 p q)) = ix1 p
    ∧ idx_main_v0 (idx_main_v6 (ix2 p q)) = ix1 p ∧ idx_main_v0 (idx_main_v12 (ix2 p q)) = ix1 p :=
  ⟨funext fun a => match a with | ⟨0, _⟩ => rfl, funext fun a => match a with | ⟨0, _⟩ => rfl,
    funext fun a => match a with | ⟨0, _⟩ => rfl, funext fun a => match a with | ⟨0, _⟩ => rfl⟩

/-- A bias entry of column `q`, read through the row and its broadcast over the rows. -/
theorem bias_idx (p : Fin 8192) (q : Fin 2048) :
    idx_main_v5 (idx_main_v7 (ix2 p q)) = ix1 q ∧ idx_main_v11 (idx_main_v13 (ix2 p q)) = ix1 q :=
  ⟨funext fun a => match a with | ⟨0, _⟩ => rfl, funext fun a => match a with | ⟨0, _⟩ => rfl⟩

/-- The left factor of either contraction at `(p, q)`, step `k`: entry `(p, k)` of `x`. -/
theorem left_idx (p : Fin 8192) (q k : Fin 2048) :
    lidx_main_v2 (ix2 p q) k = ix2 p k ∧ lidx_main_v4 (ix2 p q) k = ix2 p k :=
  ⟨funext fun a => match a with | ⟨0, _⟩ => rfl | ⟨1, _⟩ => rfl,
    funext fun a => match a with | ⟨0, _⟩ => rfl | ⟨1, _⟩ => rfl⟩

/-- The right factor: entry `(k, q)` of the transposed weight matrix, which is entry `(q, k)` of the matrix. -/
theorem right_idx (p : Fin 8192) (q k : Fin 2048) :
    idx_main_v1 (ridx_main_v2 (ix2 p q) k) = ix2 q k ∧ idx_main_v3 (ridx_main_v4 (ix2 p q) k) = ix2 q k :=
  ⟨funext fun a => match a with | ⟨0, _⟩ => rfl | ⟨1, _⟩ => rfl,
    funext fun a => match a with | ⟨0, _⟩ => rfl | ⟨1, _⟩ => rfl⟩

/-- The reference's result, as a function of the six argument arrays, is `blend`. -/
theorem result_eq (x0 : (⟨S8192x2048, .f32⟩ : BufTy).Contents (Elt Ideal)) (x1 : (⟨S8192, .f32⟩ : BufTy).Contents (Elt Ideal))
    (x2 x3 : (⟨S2048x2048, .f32⟩ : BufTy).Contents (Elt Ideal)) (x4 x5 : (⟨S2048, .f32⟩ : BufTy).Contents (Elt Ideal)) :
    val_main_v23 (F := Ideal) x0 x1 x2 x3 x4 x5 = blend x0 x1 x2 x3 x4 x5 := by
  funext i
  obtain ⟨p, q, rfl⟩ : ∃ (p : Fin 8192) (q : Fin 2048), i = ix2 p q := ⟨i 0, i 1, eq_ix2 i⟩
  rw [blend_ix2]
  rw [val_main_v23_apply, val_main_v22_apply, val_main_v17_apply, val_main_v21_apply, val_main_v15_apply,
    val_main_v8_apply, val_main_v14_apply, val_main_v16_apply, val_main_v20_apply, val_main_v19_apply,
    val_main_v18_apply, val_main_cst_0_apply, val_main_v2_apply, val_main_v4_apply, val_main_v6_apply,
    val_main_v7_apply, val_main_v12_apply, val_main_v13_apply, val_main_v10_apply, val_main_v9_apply,
    val_main_cst_apply, val_main_v5_apply, val_main_v11_apply]
  simp only [val_main_v0_apply, val_main_v1_apply, val_main_v3_apply, (coeff_idx p q).1, (coeff_idx p q).2.1,
    (coeff_idx p q).2.2.1, (coeff_idx p q).2.2.2, (bias_idx p q).1, (bias_idx p q).2, (left_idx p q _).1, (left_idx p q _).2,
    (right_idx p q _).1, (right_idx p q _).2]
  rfl

end Cert.ReferenceIdeal.RefBlend

end
-- ==== Proof.lean ====
/-
  A per-row blend of two linear layers: for a batch `x` of 8192 rows, a coefficient `a p` per row, two weight matrices
  and two bias vectors, the result's entry `(p, q)` is

      (a p · ⟨x p, w1 q⟩ + (1 − a p) · ⟨x p, w2 q⟩) + (a p · b1 q + (1 − a p) · b2 q).

  The kernel computes it 512 rows at a time, contracting the rows of `x` with the ROWS of each weight matrix; the
  reference transposes the weight matrices and contracts with their columns, over the whole batch at once. On the
  extended reals the two inner products are the same sum term by term and the four products are combined in the same
  grouping, so both programs compute the one function `Cert.Blend.blend` of their arguments and no law of arithmetic —
  hence no finiteness of the inputs — is used.

  The pieces: `Blend` states the function; `RefBlend` reads the reference's run as it; `Payload` reads what the kernel
  body stores, entry by entry; `Staged` says what the region finds in the arrays it stages; `Blocks` joins the blocks the
  16 grid points write back into the whole array. The frames are the generated ones, and the kernel's idealization
  rewrote nothing, so `preserves` is trivial.
-/
import proofs.«169532_j53283364274742_1_alg».proof.Defs
import proofs.«169532_j53283364274742_1_alg».proof.Proof.Gen.Kernel
import proofs.«169532_j53283364274742_1_alg».proof.Proof.Gen.Kernel.Skeleton
import proofs.«169532_j53283364274742_1_alg».proof.Proof.Gen.Kernel.Launch
import proofs.«169532_j53283364274742_1_alg».proof.Proof.Gen.Kernel.Points
import proofs.«169532_j53283364274742_1_alg».proof.Proof.Gen.Kernel.Frame
import proofs.«169532_j53283364274742_1_alg».proof.Proof.Gen.KernelIdeal
import proofs.«169532_j53283364274742_1_alg».proof.Proof.Gen.KernelIdeal.Skeleton
import proofs.«169532_j53283364274742_1_alg».proof.Proof.Gen.KernelIdeal.Launch
import proofs.«169532_j53283364274742_1_alg».proof.Proof.Gen.KernelIdeal.Points
import proofs.«169532_j53283364274742_1_alg».proof.Proof.Gen.KernelIdeal.Frame
import proofs.«169532_j53283364274742_1_alg».proof.Proof.Gen.ReferenceIdeal
import proofs.«169532_j53283364274742_1_alg».proof.Proof.Gen.Pre_finite_inputs
import proofs.«169532_j53283364274742_1_alg».proof.Proof.Gen.KernelIdeal.Value
import proofs.«169532_j53283364274742_1_alg».proof.Proof.Gen.ReferenceIdeal.Run
import proofs.«169532_j53283364274742_1_alg».proof.Proof.Gen.ReferenceIdeal.Read
import proofs.«169532_j53283364274742_1_alg».proof.Proof.Blocks
import proofs.«169532_j53283364274742_1_alg».proof.Proof.RefBlend
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the six arguments, the kernel's result array ends at `blend` of its arguments and the
    reference's at `blend` of its own, which are the same arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefBlend.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
